-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S400x10000 : Shape := ⟨2, ![400, 10000]⟩
abbrev S400x128 : Shape := ⟨2, ![400, 128]⟩

abbrev nBuf : Space → Nat
  | .hbm => 4
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S400x10000, .f32⟩
  | .local _ .vmem, ⟨3, _⟩ => ⟨S400x10000, .f32⟩
  | .local _ .vmem, ⟨4, _⟩ => ⟨S400x128, .f32⟩
  | .local _ .vmem, ⟨5, _⟩ => ⟨S400x128, .f32⟩
  | .local _ .vmem, ⟨6, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  inb_S400x128_S400x128_0_0 : ∀ a, (![0, 0] : Fin 2 → Nat) a + S400x128.size a ≤ S400x128.size a
  h_S400x128 : 0 < S400x128.numel
  dot_S10000x128_S128x128_S10000x128_1_1_0_0_n_n_wf : DotDims.WF S10000x128 S128x128 S10000x128 [1] [1] [0] [0] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x10000.size a ≤ S10000x10000.size a
  hwx0_2 : ∀ i : grid0.Coords, EltTy.bits .f32 = 32 ∨ (Rect.block (s := S10000x10000) S400x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S10000x128.size a
  hwx0_3 : ∀ i : grid0.Coords, EltTy.bits .f32 = 32 ∨ (Rect.block (s := S10000x128) S400x128.size (cc0_transform_3 i) (hinb0_3 i)).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S400x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S400x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S128x128, .f32⟩
  | .hbm, ⟨5, _⟩ => ⟨S10000x128, .f32⟩
  | .hbm, ⟨6, _⟩ => ⟨S_, .f32⟩
  | .hbm, ⟨7, _⟩ => ⟨S10000x128, .f32⟩
  | .hbm, ⟨8, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩

abbrev nD : Nat := 1
abbrev τ : Topo := Topo.v7x

variable {F : FTy → Type} [FloatOps F]

class Facts₀ : Prop where
  transposes_S128x128_S128x128_1_0 : S128x128.Transposes [1, 0] S128x128
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.Spec.lean ====
/-
  The graph convolution as ONE function of its three argument arrays, in the two arrangements the programs compute,
  and the law that joins them.

  With features v [10000, 128], a dense adjacency adj [10000, 10000] and a weight W [128, 128]:

    project-then-aggregate   relu(adj · (v · Wᵀ)):   out(p, o) = max (Σ_k adj(p, k) · (Σ_j v(k, j) · W(o, j))) 0
    aggregate-then-project   relu((adj · v) · Wᵀ):   out(p, o) = max (Σ_j (Σ_k adj(p, k) · v(k, j)) · W(o, j)) 0

  Both are triple sums of adj(p, k) · v(k, j) · W(o, j); they differ by distributing a factor over a sum and by the
  order of the two summations. On the extended reals distributivity fails at the infinities, so the two agree where
  every entry is a real number — there the sums are real sums, where Σ_j (Σ_k a_k · v_kj) · w_j = Σ_k a_k · (Σ_j v_kj · w_j).
-/
import Idealize.ShloMosaic.Lib.ValueIdx
import Idealize.ShloMosaic.PureOps.Ideal

noncomputable section

open scoped BigOperators

namespace Cert.GraphConv

open Idealize.ShloMosaic Idealize.ShloMosaic.ValueIdx

/-- An r × c matrix of extended reals, indexed as the programs' arrays are. -/
abbrev Mat (r c : ℕ) : Type := (⟨2, ![r, c]⟩ : Shape).Idx → EReal

/-- The projected features, one entry: (v · Wᵀ)(k, o) = Σ_j v(k, j) · W(o, j). -/
def projAt (v : Mat 10000 128) (W : Mat 128 128) (k : Fin 10000) (o : Fin 128) : EReal :=
  ∑ j : Fin 128, v (ix2 k j) * W (ix2 o j)

/-- Project, then aggregate over the neighbours, then clamp at zero: one entry of relu(adj · (v · Wᵀ)). -/
def convAt (v : Mat 10000 128) (adj : Mat 10000 10000) (W : Mat 128 128) (p : Fin 10000) (o : Fin 128) : EReal :=
  max (∑ k : Fin 10000, adj (ix2 p k) * projAt v W k o) 0

/-- The aggregated features, one entry: (adj · v)(p, j) = Σ_k adj(p, k) · v(k, j). -/
def aggAt (v : Mat 10000 128) (adj : Mat 10000 10000) (p : Fin 10000) (j : Fin 128) : EReal :=
  ∑ k : Fin 10000, adj (ix2 p k) * v (ix2 k j)

/-- Aggregate, then project, then clamp at zero: one entry of relu((adj · v) · Wᵀ). -/
def convRefAt (v : Mat 10000 128) (adj : Mat 10000 10000) (W : Mat 128 128) (p : Fin 10000) (o : Fin 128) : EReal :=
  max (∑ j : Fin 128, aggAt v adj p j * W (ix2 o j)) 0

/-- The whole result array, project-then-aggregate. -/
def conv (v : Mat 10000 128) (adj : Mat 10000 10000) (W : Mat 128 128) : Mat 10000 128 :=
  fun i => convAt v adj W (i 0) (i 1)

/-- The whole result array, aggregate-then-project. -/
def convRef (v : Mat 10000 128) (adj : Mat 10000 10000) (W : Mat 128 128) : Mat 10000 128 :=
  fun i => convRefAt v adj W (i 0) (i 1)

/-- The whole projected-feature array v · Wᵀ. -/
def proj (v : Mat 10000 128) (W : Mat 128 128) : Mat 10000 128 :=
  fun i => projAt v W (i 0) (i 1)

/-- The inclusion of the reals in the extended reals carries finite sums to finite sums. -/
theorem coe_sum {ι : Type*} (s : Finset ι) (f : ι → ℝ) : ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- Associativity of the triple product of real matrices, one entry, read in the extended reals:
    Σ_j (Σ_k a_k · v_kj) · w_j = Σ_k a_k · (Σ_j v_kj · w_j). -/
theorem sum_assoc_real {K J : Type*} [Fintype K] [Fintype J] (a : K → ℝ) (v : K → J → ℝ) (w : J → ℝ) :
    ∑ j, (∑ k, (a k : EReal) * (v k j : EReal)) * (w j : EReal)
      = ∑ k, (a k : EReal) * ∑ j, (v k j : EReal) * (w j : EReal) := by
  simp only [← EReal.coe_mul, ← coe_sum]
  congr 1
  simp only [Finset.sum_mul, Finset.mul_sum]
  rw [Finset.sum_comm]
  exact Finset.sum_congr rfl fun k _ => Finset.sum_congr rfl fun j _ => mul_assoc _ _ _

/-- Where every entry of the three arrays is a real number, the two arrangements give the same entry. -/
theorem convRefAt_eq_convAt (v : Mat 10000 128) (adj : Mat 10000 10000) (W : Mat 128 128)
    (hv : ∀ i, ∃ r : ℝ, v i = r) (ha : ∀ i, ∃ r : ℝ, adj i = r) (hW : ∀ i, ∃ r : ℝ, W i = r)
    (p : Fin 10000) (o : Fin 128) : convRefAt v adj W p o = convAt v adj W p o := by
  choose vr hvr using hv
  choose ar har using ha
  choose wr hwr using hW
  unfold convRefAt convAt aggAt projAt
  simp only [hvr, har, hwr]
  exact congrArg (max · 0) (sum_assoc_real (fun k => ar (ix2 p k)) (fun k j => vr (ix2 k j)) (fun j => wr (ix2 o j)))

/-- So, where every entry is a real number, the two arrangements are the same array. -/
theorem convRef_eq_conv (v : Mat 10000 128) (adj : Mat 10000 10000) (W : Mat 128 128)
    (hv : ∀ i, ∃ r : ℝ, v i = r) (ha : ∀ i, ∃ r : ℝ, adj i = r) (hW : ∀ i, ∃ r : ℝ, W i = r) :
    convRef v adj W = conv v adj W :=
  funext fun i => convRefAt_eq_convAt v adj W hv ha hW (i 0) (i 1)

end Cert.GraphConv

end
-- ==== Proof.Finite.lean ====
/-
  From the precondition to real entries. The precondition is the conjunction, over the three argument arrays, of
  "every entry's absolute value is below +∞". On the extended reals |x| = max x (-x), and |x| < +∞ rules out both
  infinities, so every entry of every argument array is a real number.
-/
import proofs.«174669_g11467562680484_week1_w4_595_13_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal

noncomputable section

namespace Cert.FiniteInputs

open Idealize.ShloMosaic Cert.Pre_finite_inputs Cert.Pre_finite_inputs.Facts

/-- The scalar shape has one index. -/
instance : Subsingleton S_.Idx := ⟨fun a b => funext fun d => d.elim0⟩

/-- An extended real whose absolute value is below +∞ is a real number. -/
theorem real_of_abs_lt_top (x : EReal) (h : max x (-x) < ⊤) : ∃ r : ℝ, x = r := by
  induction x using EReal.rec with
  | bot => simp at h
  | coe r => exact ⟨r, rfl⟩
  | top => simp at h

/-- The word the precondition compares against is +∞. -/
theorem inf_word : Ideal.ofBits .f32 0x7F800000#32 = (⊤ : EReal) := by simp [Ideal.ofBits, Ideal.ieee]

/-- One entry of one array: the comparison "|x| < +∞" coming out true makes the entry a real number. -/
theorem entry_real {S : Shape} (X : FVec Ideal S .f32) (hb : S_.BroadcastsInDim S (![] : Fin 0 → Fin S.rank)) (i : S.Idx)
    (h : cmpf .olt (Host.absf X) (broadcastInDim S ![] hb (constant (F := Ideal) S_ .f32 0x7F800000#32)) i = 1#1) :
    ∃ r : ℝ, X i = r := by
  have hb' : broadcastInDim S ![] hb (constant (F := Ideal) S_ .f32 0x7F800000#32) i = Ideal.ofBits .f32 0x7F800000#32 :=
    broadcastInDim_apply _ hb _ i (fun a => a.elim0) (fun a => a.elim0)
  have h' : Ideal.cmp .olt (max (X i) (-(X i))) (broadcastInDim S ![] hb (constant (F := Ideal) S_ .f32 0x7F800000#32) i) = 1#1 := h
  rw [hb', inf_word] at h'
  refine real_of_abs_lt_top (X i) ?_
  by_contra hn
  simp [Ideal.cmp, hn] at h'

/-- The precondition, all ones, makes every entry of the three argument arrays a real number. -/
theorem real_of_pre (a0 : FVec Ideal S10000x128 .f32) (a1 : FVec Ideal S10000x10000 .f32) (a2 : FVec Ideal S128x128 .f32)
    (h : fn (F := Ideal) a0 a1 a2 = fun _ => 1#1) :
    (∀ i, ∃ r : ℝ, a0 i = r) ∧ (∀ i, ∃ r : ℝ, a1 i = r) ∧ (∀ i, ∃ r : ℝ, a2 i = r) := by
  have h0 := congrFun h ValueIdx.ix0
  dsimp only [fn] at h0
  obtain ⟨h01, h2⟩ := IntOp.andi_eq_one.1 h0
  obtain ⟨h0', h1⟩ := IntOp.andi_eq_one.1 h01
  exact ⟨fun i => entry_real a0 _ i (Host.reduce_andi_all _ _ _ _ _ h0' i),
    fun i => entry_real a1 _ i (Host.reduce_andi_all _ _ _ _ _ h1 i),
    fun i => entry_real a2 _ i (Host.reduce_andi_all _ _ _ _ _ h2 i)⟩

end Cert.FiniteInputs

end
-- ==== Proof.RefValue.lean ====
/-
  The reference at an entry. Its program is four stages: adj · v, the transpose of W, the product of the two, and the
  clamp at zero. Read one operation at a time, entry (p, o) of its result is
  max (Σ_j (Σ_k adj(p, k) · v(k, j)) · Wᵀ(j, o)) 0 with Wᵀ(j, o) = W(o, j): the aggregate-then-project arrangement.
-/
import proofs.«174669_g11467562680484_week1_w4_595_13_alg».proof.Proof.Gen.ReferenceIdeal.Read
import proofs.«174669_g11467562680484_week1_w4_595_13_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx Cert.GraphConv

/-! ## Where each stage reads its operands, in coordinates -/

/-- The outer product reads the aggregate in the output's row, at the contraction's column … -/
theorem outer_lhs (p : Fin 10000) (o j : Fin 128) : lidx_main_v2 (ix2 p o) j = ix2 p j :=
  funext fun a => Fin.ext (by match a with | ⟨0, _⟩ => rfl | ⟨1, _⟩ => rfl)
/-- … and the transposed weight at the contraction's row, in the output's column. -/
theorem outer_rhs (p : Fin 10000) (o j : Fin 128) : ridx_main_v2 (ix2 p o) j = ix2 j o :=
  funext fun a => Fin.ext (by match a with | ⟨0, _⟩ => rfl | ⟨1, _⟩ => rfl)
/-- The inner product reads the adjacency in the output's row, at the contraction's column … -/
theorem inner_lhs (p : Fin 10000) (j : Fin 128) (k : Fin 10000) : lidx_main_v0 (ix2 p j) k = ix2 p k :=
  funext fun a => Fin.ext (by match a with | ⟨0, _⟩ => rfl | ⟨1, _⟩ => rfl)
/-- … and the features at the contraction's row, in the output's column. -/
theorem inner_rhs (p : Fin 10000) (j : Fin 128) (k : Fin 10000) : ridx_main_v0 (ix2 p j) k = ix2 k j :=
  funext fun a => Fin.ext (by match a with | ⟨0, _⟩ => rfl | ⟨1, _⟩ => rfl)
/-- The transpose reads the weight with its two coordinates exchanged. -/
theorem transposed (j o : Fin 128) : idx_main_v1 (ix2 j o) = ix2 o j :=
  funext fun a => Fin.ext (by match a with | ⟨0, _⟩ => rfl | ⟨1, _⟩ => rfl)

/-! ## The result at an entry -/

/-- Entry (p, o) of the reference's result is the aggregate-then-project arrangement of the graph convolution. -/
theorem result_apply (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (p : Fin 10000) (o : Fin 128) :
    val_main_v3 (F := Ideal) x0 x1 x2 (ix2 p o) = convRefAt x0 x1 x2 p o := by
  rw [val_main_v3_apply, val_main_v2_apply, val_main_call0_v0_apply, val_main_call0_cst_apply]
  simp only [val_main_v0_apply, val_main_v1_apply, outer_lhs, outer_rhs, inner_lhs, inner_rhs, transposed]
  show max _ (Ideal.ofBits .f32 0x00000000#32) = _
  rw [Ideal.ofBits_zero_f32]
  rfl

/-- As a whole array, the reference's result is the aggregate-then-project arrangement of its three arguments. -/
theorem result_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) :
    val_main_v3 (F := Ideal) x0 x1 x2 = convRef x0 x1 x2 := by
  funext i
  obtain ⟨p, o, rfl⟩ : ∃ (p : Fin 10000) (o : Fin 128), i = ix2 p o := ⟨i 0, i 1, eq_ix2 i⟩
  exact result_apply x0 x1 x2 p o

end Cert.ReferenceIdeal.RefValue

end
-- ==== Proof.Pieces.lean ====
/-
  What each of the body's two control cases leaves behind, as values of what it loaded.

  At the first grid point the body stores the projection of the two loaded arrays into the carried scratch, reads the
  scratch back, and stores the clamped aggregate of the adjacency block against it into the output block. At every
  other point it stores nothing into the scratch and aggregates against what the scratch already holds. Each store
  covers its whole buffer, so what a buffer ends with is exactly the stored value.
-/
import proofs.«174669_g11467562680484_week1_w4_595_13_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

/-- Every store and load of the body starts at the origin of its buffer. -/
theorem origin : (![0, 0] : Fin 2 → Nat) = fun _ => 0 := funext fun a => by fin_cases a <;> rfl

/-- First point: the carried scratch ends holding the projection of the loaded feature and weight arrays. -/
theorem scratch_first (c : Dev nD) (i : grid0.Coords) (a1 : Memref sig .tc .vmem S10000x128 .f32) (h1 : a1.IsWhole) (a2 : Memref sig .tc .vmem S128x128 .f32) (h2 : a2.IsWhole) (a3 : Memref sig .tc .vmem S400x10000 .f32) (h3 : a3.IsWhole) (a4 : Memref sig .tc .vmem S400x128 .f32) (h4 : a4.IsWhole) (a5 : Memref sig .tc .vmem S10000x128 .bf16) (h5 : a5.IsWhole) (hc : cond0_0 i)
    (x0 : Vec F S10000x128 .f32) (x1 : Vec F S128x128 .f32) (x2 : Vec F S400x10000 .f32) :
    sout0_A_0 c i a1 h1 a2 h2 a3 h3 a4 h4 a5 h5 hc x0 x1 x2 = k0_pay1 x0 x1 := by
  unfold sout0_A_0
  rw [View.read_writes_eq_canon _ _ _ (scover0_A_0 c i a1 h1 a2 h2 a3 h3 a4 h4 a5 h5 hc x0 x1 x2)]
  unfold kernelRun0_A
  dsimp only
  sl_unfold_words
  rw [View.canon_unit_zero (S := S10000x128) origin]
  simp only [View.readAt_eq_ld, h1.read_unread, h2.read_unread, View.ld_unit_zero (S := S10000x128) origin,
    View.ld_unit_zero (S := S128x128) origin]

/-- First point: the output block ends holding the clamped aggregate of the adjacency block against that projection
    (the body reads back the scratch it has just stored). -/
theorem out_first (c : Dev nD) (i : grid0.Coords) (a1 : Memref sig .tc .vmem S10000x128 .f32) (h1 : a1.IsWhole) (a2 : Memref sig .tc .vmem S128x128 .f32) (h2 : a2.IsWhole) (a3 : Memref sig .tc .vmem S400x10000 .f32) (h3 : a3.IsWhole) (a4 : Memref sig .tc .vmem S400x128 .f32) (h4 : a4.IsWhole) (a5 : Memref sig .tc .vmem S10000x128 .bf16) (h5 : a5.IsWhole) (hc : cond0_0 i)
    (x0 : Vec F S10000x128 .f32) (x1 : Vec F S128x128 .f32) (x2 : Vec F S400x10000 .f32) :
    out0_A_3 c i a1 h1 a2 h2 a3 h3 a4 h4 a5 h5 hc x0 x1 x2 = k0_pay2 x2 (k0_pay1 x0 x1) := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_unit_zero (S := S400x128) origin, View.readCov_unit_zero (S := S10000x128) _ origin]
  simp only [View.readAt_eq_ld, h1.read_unread, h2.read_unread, h3.read_unread, View.ld_unit_zero (S := S10000x128) origin,
    View.ld_unit_zero (S := S128x128) origin, View.ld_unit_zero (S := S400x10000) origin]

/-- Every later point: the output block ends holding the clamped aggregate of the adjacency block against whatever
    the carried scratch held on entry. -/
theorem out_later (c : Dev nD) (i : grid0.Coords) (a1 : Memref sig .tc .vmem S10000x128 .f32) (h1 : a1.IsWhole) (a2 : Memref sig .tc .vmem S128x128 .f32) (h2 : a2.IsWhole) (a3 : Memref sig .tc .vmem S400x10000 .f32) (h3 : a3.IsWhole) (a4 : Memref sig .tc .vmem S400x128 .f32) (h4 : a4.IsWhole) (a5 : Memref sig .tc .vmem S10000x128 .bf16) (h5 : a5.IsWhole) (hc : ¬cond0_0 i)
    (x0 : Vec F S10000x128 .f32) (x1 : Vec F S128x128 .f32) (x2 : Vec F S400x10000 .f32) (xs : Vec F S10000x128 .bf16) :
    out0_B_3 c i a1 h1 a2 h2 a3 h3 a4 h4 a5 h5 hc x0 x1 x2 xs = k0_pay2 x2 xs := by
  unfold out0_B_3
  rw [View.read_writes_eq_canon _ _ _ (cover0_B_3 c i a1 h1 a2 h2 a3 h3 a4 h4 a5 h5 hc x0 x1 x2 xs)]
  unfold kernelRun0_B
  dsimp only
  rw [View.canon_unit_zero (S := S400x128) origin]
  simp only [View.readAt_eq_ld, h3.read_unread, h5.read_unread, View.ld_unit_zero (S := S400x10000) origin,
    View.ld_unit_zero (S := S10000x128) origin]

end Cert.KernelIdeal.Pieces

end
-- ==== Proof.Carried.lean ====
/-
  What the kernel carries from one grid point to the next.

  The scratch is stored at the first of the 25 grid points and never again, and no point after the first changes it.
  So after EVERY point it holds the projection of the feature and weight windows' blocks as the first point found
  them (induction on the point), and every point's output block is the clamped aggregate of that point's adjacency
  block against this one array.
-/
import proofs.«174669_g11467562680484_week1_w4_595_13_alg».proof.Proof.Pieces

noncomputable section

namespace Cert.KernelIdeal.Carried

open Cert.KernelIdeal Cert.KernelIdeal.Gen Cert.KernelIdeal.Pieces Idealize.ShloMosaic Idealize.ShloMosaic.TcCoe Idealize.SL.Sem

variable {F : FTy → Type} [FloatOps F]
variable (m : (ℓ : Loc nD τ sig) → Buf (Elt F) ℓ)

/-- The grid has a first point. -/
theorem grid_pos : 0 < cfg0.N := by rw [show cfg0.N = 25 from N_0]; decide

/-- The first grid point. -/
abbrev first : Fin cfg0.N := ⟨0, grid_pos⟩

/-- What the first point stores in the scratch: the projection of the feature and weight blocks it loaded. -/
def stored (c : Dev nD) : Vec F S10000x128 .bf16 := k0_pay1 (iblk m c 0 first) (iblk m c 1 first)

/-- After every point the scratch holds what the first point stored. -/
theorem scratch_eq (c : Dev nD) (n : ℕ) (h : n < cfg0.N) : (outsAt0 m c n h).2 = stored m c := by
  have hN : cfg0.N = 25 := N_0
  induction n with
  | zero =>
    rw [outsAt0_A m c ⟨0, h⟩ rfl]
    dsimp only
    exact scratch_first c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) scM0_0 (Memref.isWhole_whole _) ((hcond0_0 ⟨0, h⟩).mpr rfl)
      (iblk m c 0 ⟨0, h⟩) (iblk m c 1 ⟨0, h⟩) (iblk m c 2 ⟨0, h⟩)
  | succ n ih =>
    have hB : ¬(⟨n + 1, h⟩ : Fin cfg0.N).val % 25 = 0 := by dsimp only; omega
    rw [outsAt0_B m c ⟨n + 1, h⟩ hB]
    dsimp only
    unfold sout0_B_0
    exact ih (Nat.lt_of_succ_lt h)

/-- Every point's output block is the clamped aggregate of its adjacency block against that stored projection. -/
theorem out_eq (c : Dev nD) (t : Fin cfg0.N) :
    (outsAt0 m c t.val t.isLt).1 = k0_pay2 (iblk m c 2 t) (stored m c) := by
  have hN : cfg0.N = 25 := N_0
  by_cases h0 : t.val % 25 = 0
  · have ht : t = first := Fin.ext (by have := t.isLt; show t.val = 0; omega)
    subst ht
    rw [outsAt0_A m c first h0]
    dsimp only
    exact out_first c (grid0.coords first) (ms0_0 first) (hs0_0 first) (ms0_1 first) (hs0_1 first) (ms0_2 first) (hs0_2 first) (ms0_3 first) (hs0_3 first) scM0_0 (Memref.isWhole_whole _) ((hcond0_0 first).mpr h0) (iblk m c 0 first) (iblk m c 1 first) (iblk m c 2 first)
  · rw [outsAt0_B m c t h0]
    dsimp only
    refine (out_later c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t)
      ((outsAt0 m c (t.val - 1) (Nat.lt_of_le_of_lt (Nat.sub_le _ _) t.isLt)).2)).trans ?_
    rw [scratch_eq m c (t.val - 1) (Nat.lt_of_le_of_lt (Nat.sub_le _ _) t.isLt)]

end Cert.KernelIdeal.Carried

end
-- ==== Proof.LibMatmul.lean ====
/-
  A plain matrix product read at an index. For a product of an [m, k] by a [k, n] matrix that contracts the
  left operand's axis 1 with the right operand's axis 0 (no batch axes), the entry at (a, b) is the sum over c of
  A[a, c] · B[c, b] — both for the host's dot_general and for the in-kernel matmul into a zero accumulator, at the
  ideal values (extended reals, exact operations; a change of float format is the identity there).
-/
import Idealize.ShloMosaic.Lib.ValueIdx
import Idealize.ShloMosaic.PureOps.Ideal.Laws

namespace Cert.MatProd

open Idealize.ShloMosaic Idealize.ShloMosaic.ValueIdx

variable {m k n : ℕ}

/-- The operand indices of a plain product at output index (a, b) and contraction coordinate c are (a, c) and (c, b). -/
theorem lhsIdx_plain (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

theorem rhsIdx_plain (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- The host's dot_general of a plain product, at (a, b): Σ_c A[a, c] · B[c, b]. -/
theorem dotGeneral_apply {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b) = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_plain w a b c, rhsIdx_plain w a b c]

/-- The in-kernel matmul of a plain product into a zero accumulator, at (a, b): the same sum. -/
theorem matmul_zero_apply {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_plain w a b c, rhsIdx_plain w a b c]

end Cert.MatProd
-- ==== Proof.Payload.lean ====
/-
  The two values the kernel's body stores, read one entry at a time over the extended reals (where a change of float
  format is the identity and a matrix product into a zero accumulator is the plain sum of products).

  The first store (made at the first grid point only) is the projected features v · Wᵀ: the product contracts axis 1 of
  both operands, so its entry (a, b) is Σ_j v(a, j) · W(b, j).
  The second store (made at every grid point) is the clamped aggregate of a block of 400 adjacency rows against the
  stored projection: its entry (p, o) is max (Σ_k adjblock(p, k) · proj(k, o)) 0.
-/
import proofs.«174669_g11467562680484_week1_w4_595_13_alg».proof.Proof.Gen.KernelIdeal.Skeleton
import proofs.«174669_g11467562680484_week1_w4_595_13_alg».proof.Proof.Spec
import proofs.«174669_g11467562680484_week1_w4_595_13_alg».proof.Proof.LibMatmul
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.GraphConv

/-! ## The product that contracts axis 1 of both operands: where it reads its operands -/

/-- The left operand is read in the output's row … -/
theorem lhs_row (i : S10000x128.Idx) (q : dot_S10000x128_S128x128_S10000x128_1_1_0_0_n_n.contr.Idx) :
    (dot_S10000x128_S128x128_S10000x128_1_1_0_0_n_n.lhsIdx i q 0).val = (i 0).val := by
  unfold DotDims.lhsIdx
  rw [dif_neg (show ¬(0 : Fin S10000x128.rank) ∈ dot_S10000x128_S128x128_S10000x128_1_1_0_0_n_n.lhsBatch by decide), dif_pos (show (0 : Fin S10000x128.rank) ∈ dot_S10000x128_S128x128_S10000x128_1_1_0_0_n_n.lhsNonContracting by decide)]
  rfl
/-- … at the contraction's coordinate; -/
theorem lhs_col (i : S10000x128.Idx) (q : dot_S10000x128_S128x128_S10000x128_1_1_0_0_n_n.contr.Idx) :
    (dot_S10000x128_S128x128_S10000x128_1_1_0_0_n_n.lhsIdx i q 1).val = (q ⟨0, by decide⟩).val :=
  dot_S10000x128_S128x128_S10000x128_1_1_0_0_n_n.lhsIdx_val_of_single rfl i q
/-- the right operand is read in the row the output's COLUMN names … -/
theorem rhs_row (i : S10000x128.Idx) (q : dot_S10000x128_S128x128_S10000x128_1_1_0_0_n_n.contr.Idx) :
    (dot_S10000x128_S128x128_S10000x128_1_1_0_0_n_n.rhsIdx i q 0).val = (i 1).val := by
  unfold DotDims.rhsIdx
  rw [dif_neg (show ¬(0 : Fin S128x128.rank) ∈ dot_S10000x128_S128x128_S10000x128_1_1_0_0_n_n.rhsBatch by decide), dif_pos (show (0 : Fin S128x128.rank) ∈ dot_S10000x128_S128x128_S10000x128_1_1_0_0_n_n.rhsNonContracting by decide)]
  rfl
/-- … at the contraction's coordinate too. -/
theorem rhs_col (i : S10000x128.Idx) (q : dot_S10000x128_S128x128_S10000x128_1_1_0_0_n_n.contr.Idx) :
    (dot_S10000x128_S128x128_S10000x128_1_1_0_0_n_n.rhsIdx i q 1).val = (q ⟨0, by decide⟩).val :=
  dot_S10000x128_S128x128_S10000x128_1_1_0_0_n_n.rhsIdx_val_of_single rfl i q

/-! ## The two stored values at an entry -/

/-- The first store's value is the projected features: entry (a, b) is Σ_j v(a, j) · W(b, j). -/
theorem pay1_apply (x0 : Vec Ideal S10000x128 .f32) (x1 : Vec Ideal S128x128 .f32) (a : Fin 10000) (b : Fin 128) :
    k0_pay1 (F := Ideal) x0 x1 (ix2 a b) = projAt x0 x1 a b := by
  unfold k0_pay1
  refine (congrFun (shapeCast_self _ _) _).trans ?_
  show FloatOps.matmul (F := Ideal) (φ₁ := .bf16) (φ₂ := .bf16) dot_S10000x128_S128x128_S10000x128_1_1_0_0_n_n none x0 x1
    (constant S10000x128 .f32 0x00000000#32) (ix2 a b) = _
  rw [Ideal.matmul_constant_zero_apply, ← Equiv.sum_comp (contrEquiv1 dot_S10000x128_S128x128_S10000x128_1_1_0_0_n_n 128 rfl rfl).symm]
  unfold projAt
  refine Finset.sum_congr rfl fun k _ => ?_
  have hk := contrEquiv1_symm_val dot_S10000x128_S128x128_S10000x128_1_1_0_0_n_n 128 rfl rfl k
  have el : dot_S10000x128_S128x128_S10000x128_1_1_0_0_n_n.lhsIdx (ix2 a b) ((contrEquiv1 dot_S10000x128_S128x128_S10000x128_1_1_0_0_n_n 128 rfl rfl).symm k) = ix2 a k := funext fun ax => Fin.ext (by
    match ax with
    | ⟨0, _⟩ => exact lhs_row _ _
    | ⟨1, _⟩ => exact (lhs_col _ _).trans hk)
  have er : dot_S10000x128_S128x128_S10000x128_1_1_0_0_n_n.rhsIdx (ix2 a b) ((contrEquiv1 dot_S10000x128_S128x128_S10000x128_1_1_0_0_n_n 128 rfl rfl).symm k) = ix2 b k := funext fun ax => Fin.ext (by
    match ax with
    | ⟨0, _⟩ => exact rhs_row _ _
    | ⟨1, _⟩ => exact (rhs_col _ _).trans hk)
  rw [el, er]

/-- As a whole array, the first store's value is `proj` of the two loaded arrays. -/
theorem pay1_eq (x0 : Vec Ideal S10000x128 .f32) (x1 : Vec Ideal S128x128 .f32) :
    k0_pay1 (F := Ideal) x0 x1 = proj x0 x1 := by
  funext i
  obtain ⟨a, b, rfl⟩ : ∃ (a : Fin 10000) (b : Fin 128), i = ix2 a b := ⟨i 0, i 1, eq_ix2 i⟩
  exact pay1_apply x0 x1 a b

/-- The second store's value: entry (p, o) is the clamped sum over all 10000 nodes k of the adjacency block's (p, k)
    times the stored array's (k, o). -/
theorem pay2_apply (x2 : Vec Ideal S400x10000 .f32) (xs : Vec Ideal S10000x128 .bf16) (p : Fin 400) (o : Fin 128) :
    k0_pay2 (F := Ideal) x2 xs (ix2 p o) = max (∑ k : Fin 10000, x2 (ix2 p k) * xs (ix2 k o)) 0 := by
  unfold k0_pay2
  show max (FloatOps.matmul (F := Ideal) (φ₁ := .bf16) (φ₂ := .bf16) dot_S400x10000_S10000x128_S400x128_1_0_0_1_n_n none x2 xs
      (constant S400x128 .f32 0x00000000#32) (ix2 p o))
    (Ideal.ofBits .f32 0x00000000#32) = _
  rw [Ideal.ofBits_zero_f32]
  exact congrArg (max · 0) (Cert.MatProd.matmul_zero_apply (φ₁ := .bf16) (φ₂ := .bf16) (dot_S400x10000_S10000x128_S400x128_1_0_0_1_n_n).wf none x2 xs p o)

end Cert.KernelIdeal.Payload

end
-- ==== Proof.Blocks.lean ====
/-
  From the grid's blocks to the whole result array.

  The output window's block at grid point t is rows 400·t … 400·t + 399 of the result, all 128 columns; the adjacency
  window's block at t is the same 400 rows of adj, all 10000 columns; the feature and weight windows' one block is the
  whole array. So what point t writes back is rows 400·t … of ONE whole-array function — relu(adj · (v · Wᵀ)) of the
  argument arrays — and, the 25 blocks covering the 10000 rows, the result array ends holding that function.
-/
import proofs.«174669_g11467562680484_week1_w4_595_13_alg».proof.Proof.Gen.KernelIdeal.Value
import proofs.«174669_g11467562680484_week1_w4_595_13_alg».proof.Proof.Carried
import proofs.«174669_g11467562680484_week1_w4_595_13_alg».proof.Proof.Payload

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Cert.GraphConv Cert.KernelIdeal.Payload Cert.KernelIdeal.Carried
open Idealize.ShloMosaic.Pipeline (Dat)

variable (m : (ℓ : Loc nD τ sig) → Buf (Elt Ideal) ℓ) (ρ : Dev nD → PrngReg)

/-- The windows' block indices over the grid: the feature and weight windows stay at block (0, 0); the adjacency and
    output windows are at block row t, block column 0. -/
theorem block_index : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The feature window's block is the whole feature array. -/
theorem feat_block (c : Dev nD) (t : Fin cfg0.N) : (iblk m c 0 t : Vec Ideal S10000x128 .f32) = V m c main_arg0 := by
  obtain ⟨e0, e1, -⟩ := block_index t
  funext y
  show V m c main_arg0 (((cfg0.win 0).blk t).view.emb y) = V m c main_arg0 y
  congr 1
  funext a; apply Fin.ext
  match a with
  | ⟨0, _⟩ => show win0_0.index t (0 : Fin 2) * 10000 + 1 * (y 0).val = (y 0).val; omega
  | ⟨1, _⟩ => show win0_0.index t (1 : Fin 2) * 128 + 1 * (y 1).val = (y 1).val; omega

/-- The weight window's block is the whole weight array. -/
theorem weight_block (c : Dev nD) (t : Fin cfg0.N) : (iblk m c 1 t : Vec Ideal S128x128 .f32) = V m c main_arg2 := by
  obtain ⟨-, -, e0, e1, -⟩ := block_index t
  funext y
  show V m c main_arg2 (((cfg0.win 1).blk t).view.emb y) = V m c main_arg2 y
  congr 1
  funext a; apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The adjacency window's block at point t, row p, is row 400·t + p of the adjacency. -/
theorem adj_block (c : Dev nD) (t : Fin cfg0.N) (p : Fin 400) (k r : Fin 10000) (hr : r.val = t.val * 400 + p.val) :
    (iblk m c 2 t : Vec Ideal S400x10000 .f32) (ix2 p k) = V m c main_arg1 (ix2 r k) := by
  obtain ⟨-, -, -, -, e0, e1, -⟩ := block_index t
  show V m c main_arg1 (((cfg0.win 2).blk t).view.emb (ix2 p k)) = V m c main_arg1 (ix2 r k)
  congr 1
  funext a; apply Fin.ext
  match a with
  | ⟨0, _⟩ => show win0_2.index t (0 : Fin 2) * 400 + 1 * p.val = r.val; omega
  | ⟨1, _⟩ => show win0_2.index t (1 : Fin 2) * 10000 + 1 * k.val = k.val; omega

/-- What the scratch carries is the projection v · Wᵀ of the argument arrays. -/
theorem stored_eq (c : Dev nD) : stored m c = proj (V m c main_arg0) (V m c main_arg2) := by
  unfold stored
  rw [pay1_eq, feat_block, weight_block]

/-- One entry of a point's output block: with the adjacency block's row p being row r of the adjacency and the scratch
    holding the projection, entry (p, o) of the clamped aggregate is entry (r, o) of relu(adj · (v · Wᵀ)). -/
theorem block_entry (x2 : Vec Ideal S400x10000 .f32) (xs : Vec Ideal S10000x128 .bf16)
    (v : Mat 10000 128) (adj : Mat 10000 10000) (W : Mat 128 128) (p : Fin 400) (o : Fin 128) (r : Fin 10000)
    (hx : ∀ k : Fin 10000, x2 (ix2 p k) = adj (ix2 r k)) (hs : xs = proj v W) :
    k0_pay2 (F := Ideal) x2 xs (ix2 p o) = convAt v adj W r o := by
  rw [pay2_apply, hs]
  unfold convAt
  exact congrArg (max · 0) (Finset.sum_congr rfl fun k _ => by rw [hx k]; rfl)

/-- The result array's contents: relu(adj · (v · Wᵀ)) of the argument arrays as the region finds them. -/
abbrev result (c : Dev nD) : Mat 10000 128 := conv (V m c main_arg0) (V m c main_arg1) (V m c main_arg2)

/-- What point t writes back is block t of that one array. -/
theorem flushed_eq (c : Dev nD) (t : Fin cfg0.N) :
    (dats m 0 c).flushed 3 t = ((cfg0.win 3).blk t).view.read (Elt Ideal) (result m c) := by
  rw [Value.flushed3, out_eq]
  obtain ⟨-, -, -, -, -, -, e0, e1⟩ := block_index t
  have hN : cfg0.N = 25 := N_0
  show (k0_pay2 (F := Ideal) (iblk m c 2 t) (stored m c) : S400x128.Idx → EReal)
    = fun j : S400x128.Idx => result m c (((cfg0.win 3).blk t).view.emb j)
  funext j
  obtain ⟨p, o, rfl⟩ : ∃ (p : Fin 400) (o : Fin 128), j = ix2 p o := ⟨j 0, j 1, eq_ix2 j⟩
  have hr : t.val * 400 + p.val < 10000 := by have := t.isLt; have := p.isLt; omega
  have he : ((cfg0.win 3).blk t).view.emb (ix2 p o) = ix2 (⟨t.val * 400 + p.val, hr⟩ : Fin 10000) o := by
    funext a; apply Fin.ext
    match a with
    | ⟨0, _⟩ => show win0_3.index t (0 : Fin 2) * 400 + 1 * p.val = t.val * 400 + p.val; omega
    | ⟨1, _⟩ => show win0_3.index t (1 : Fin 2) * 128 + 1 * o.val = o.val; omega
  show k0_pay2 (F := Ideal) (iblk m c 2 t) (stored m c) (ix2 p o) = result m c (((cfg0.win 3).blk t).view.emb (ix2 p o))
  rw [he]
  exact block_entry (iblk m c 2 t) (stored m c) (V m c main_arg0) (V m c main_arg1) (V m c main_arg2) p o ⟨_, hr⟩
    (fun k => adj_block m c t p k ⟨_, hr⟩ rfl) (stored_eq m c)

/-- An index of the result array is in point t's block iff each coordinate is in the block's range on its axis. -/
theorem mem_block (t : Fin cfg0.N) (i : S10000x128.Idx) :
    i ∈ ((cfg0.win 3).blk t).view.set ↔ ∀ a : Fin 2, win0_3.index t a * S400x128.size a ≤ (i a).val ∧ (i a).val < win0_3.index t a * S400x128.size a + S400x128.size a := by
  show i ∈ ((View.whole main_v0).slice (win0_3.rect t)).set ↔ _
  rw [View.set_slice_whole, Rect.mem_set_unit]
  exact Iff.rfl

/-- Every row r of the result is in the block of point r / 400. -/
theorem cover (i : S10000x128.Idx) : ∃ t : Fin cfg0.N, (cfg0.win 3).flush t = true ∧ i ∈ ((cfg0.win 3).blk t).view.set := by
  have hN : cfg0.N = 25 := N_0
  have hi0 : (i 0).val < 10000 := (i 0).isLt
  have hi1 : (i 1).val < 128 := (i 1).isLt
  obtain ⟨t, ht⟩ : ∃ t : Fin cfg0.N, t.val = (i 0).val / 400 := ⟨⟨(i 0).val / 400, by rw [hN]; omega⟩, rfl⟩
  obtain ⟨-, -, -, -, -, -, e0, e1⟩ := block_index t
  refine ⟨t, flush0_3 t, ?_⟩
  rw [mem_block]
  intro a
  match a with
  | ⟨0, _⟩ => show win0_3.index t (0 : Fin 2) * 400 ≤ (i 0).val ∧ (i 0).val < win0_3.index t (0 : Fin 2) * 400 + 400; omega
  | ⟨1, _⟩ => show win0_3.index t (1 : Fin 2) * 128 ≤ (i 1).val ∧ (i 1).val < win0_3.index t (1 : Fin 2) * 128 + 128; omega

/-- So after the run the result array holds relu(adj · (v · Wᵀ)). -/
theorem final (c : Dev nD) : (dats m 0 c).arrAt 3 cfg0.N = result m c :=
  (dats m 0 c).arrAt_eq_of_cover 3 (result m c) (fun t _ => flushed_eq m c t) cover

/-- The kernel's run, read: the result array at relu(adj · (v · Wᵀ)) of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Blocks

end
-- ==== Proof.lean ====
/-
  A fused graph-convolution kernel against its reference, over the extended reals.

  Arguments: node features v [10000, 128], a dense adjacency adj [10000, 10000], a weight W [128, 128]. Both programs
  return relu of the aggregated, projected features, and adj itself.

  The kernel walks 25 grid points. At the first it computes the projection v · Wᵀ once and keeps it in a scratch that
  every later point reads; at each point t it multiplies rows 400·t … 400·t + 399 of adj by that projection and clamps
  at zero, which is rows 400·t … of the result. So its result array is relu(adj · (v · Wᵀ)): what the scratch carries is
  shown by induction on the point, what a point writes back is one block of that one array, and the blocks cover it.

  The reference computes relu((adj · v) · Wᵀ), read off its four operations one at a time.

  Both are the triple sum Σ_k Σ_j adj(p, k) · v(k, j) · W(o, j) before the clamp, arranged differently; they are equal
  when a factor may be distributed over a sum and the two sums exchanged, which on the extended reals needs every entry
  to be a real number. That is what the precondition says (|x| < +∞ for every entry of every argument), so the proof
  reads the precondition, moves to real sums, and uses associativity of the matrix product there.

  The second result, adj, is an argument both programs leave unchanged. No operation of the kernel was rewritten
  in its idealization, so the idealized kernel is the kernel's own text read over the extended reals.
-/
import proofs.«174669_g11467562680484_week1_w4_595_13_alg».proof.Defs
import proofs.«174669_g11467562680484_week1_w4_595_13_alg».proof.Proof.Gen.Kernel
import proofs.«174669_g11467562680484_week1_w4_595_13_alg».proof.Proof.Gen.Kernel.Frame
import proofs.«174669_g11467562680484_week1_w4_595_13_alg».proof.Proof.Gen.KernelIdeal
import proofs.«174669_g11467562680484_week1_w4_595_13_alg».proof.Proof.Gen.KernelIdeal.Frame
import proofs.«174669_g11467562680484_week1_w4_595_13_alg».proof.Proof.Gen.KernelIdeal.Value
import proofs.«174669_g11467562680484_week1_w4_595_13_alg».proof.Proof.Gen.ReferenceIdeal
import proofs.«174669_g11467562680484_week1_w4_595_13_alg».proof.Proof.Gen.ReferenceIdeal.Run
import proofs.«174669_g11467562680484_week1_w4_595_13_alg».proof.Proof.Gen.ReferenceIdeal.Read
import proofs.«174669_g11467562680484_week1_w4_595_13_alg».proof.Proof.Gen.Pre_finite_inputs
import proofs.«174669_g11467562680484_week1_w4_595_13_alg».proof.Proof.Spec
import proofs.«174669_g11467562680484_week1_w4_595_13_alg».proof.Proof.Finite
import proofs.«174669_g11467562680484_week1_w4_595_13_alg».proof.Proof.RefValue
import proofs.«174669_g11467562680484_week1_w4_595_13_alg».proof.Proof.Blocks
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run, with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- No operation was rewritten: nothing to preserve. -/
theorem preserves : Cert.preserves_Kernel_KernelIdeal := trivial

/-- From arguments that agree and are finite, the kernel's result array ends at relu(adj · (v · Wᵀ)) and the
    reference's at relu((adj · v) · Wᵀ): one array, by associativity of the product of real matrices. Both leave adj,
    the second result, as it was. -/
theorem algebraic : Cert.algebraic_KernelIdeal_ReferenceIdeal := by
  intro m ρ m' ρ' hpre hagree
  refine ⟨fun c => Cert.KernelIdeal.Blocks.result m c,
    fun c => m ((c.tc : Thread Cert.KernelIdeal.nD Cert.KernelIdeal.τ).loc Cert.KernelIdeal.main_arg1), ?_, ?_⟩
  · exact (θ_run Cert.KernelIdeal.defs _ _).mono
      (fun r h c => ⟨(h c).1, (h c).2.2.1, (h c).2.1, (h c).2.2.1, (h c).2.2.2⟩) (Cert.KernelIdeal.Blocks.run m ρ)
  · refine (θ_run Cert.ReferenceIdeal.defs _ _).mono
      (fun r h c => ⟨(h c).1.trans ?_, (h c).2.1.trans (hagree c).2.1, (h c).2.2⟩)
      (Cert.ReferenceIdeal.Value.run (F := Ideal) m' ρ')
    obtain ⟨hv, ha, hW⟩ := Cert.FiniteInputs.real_of_pre _ _ _ (hpre c)
    rw [(hagree c).1, (hagree c).2.1, (hagree c).2.2]
    exact (Cert.ReferenceIdeal.Read.val_main_v3_eq _ _ _).trans
      ((Cert.ReferenceIdeal.RefValue.result_eq _ _ _).trans (Cert.GraphConv.convRef_eq_conv _ _ _ hv ha hW))

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
